-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152 : Shape := ⟨1, ![2097152]⟩
abbrev S8x8192x64 : Shape := ⟨3, ![8, 8192, 64]⟩
abbrev S8x8192 : Shape := ⟨2, ![8, 8192]⟩
abbrev S_ : Shape := ⟨0, ![]⟩

class Facts : Prop where
  bcast_S_S2097152 : S_.BroadcastsInDim S2097152 (![] : Fin 0 → Fin S2097152.rank)
  reducesTo_S2097152_S_d0 : S2097152.ReducesTo [0] S_
  h_S_ : 0 < S_.numel
  bcast_S_S8x8192x64 : S_.BroadcastsInDim S8x8192x64 (![] : Fin 0 → Fin S8x8192x64.rank)
  reducesTo_S8x8192x64_S_d0_1_2 : S8x8192x64.ReducesTo [0, 1, 2] S_

variable [Facts]

def fn {F : FTy → Type} [FloatOps F] (main_arg0 : IVec S2097152 32) (main_arg1 : IVec S2097152 32) (main_arg2 : IVec S2097152 32) (main_arg3 : FVec F S2097152 .f32) (main_arg4 : FVec F S8x8192x64 .f32) (main_arg5 : IVec S8x8192 1) (main_arg6 : IVec S8x8192 1) : IVec S_ 1 :=
  let main_v0 : FVec F S2097152 .f32 := Host.absf main_arg3
  let main_cst : FVec F S_ .f32 := constant S_ .f32 0x7F800000#32
  let main_v1 : FVec F S2097152 .f32 := broadcastInDim S2097152 ![] bcast_S_S2097152 main_cst
  let main_v2 : IVec S2097152 1 := cmpf .olt main_v0 main_v1
  let main_c : IVec S_ 1 := constantI S_ 1 1#1
  let main_v3 : IVec S_ 1 := (fun x v => Host.reduce IntOp.andi x v reducesTo_S2097152_S_d0 h_S_) main_v2 main_c
  let main_v4 : FVec F S8x8192x64 .f32 := Host.absf main_arg4
  let main_cst_0 : FVec F S_ .f32 := constant S_ .f32 0x7F800000#32
  let main_v5 : FVec F S8x8192x64 .f32 := broadcastInDim S8x8192x64 ![] bcast_S_S8x8192x64 main_cst_0
  let main_v6 : IVec S8x8192x64 1 := cmpf .olt main_v4 main_v5
  let main_c_1 : IVec S_ 1 := constantI S_ 1 1#1
  let main_v7 : IVec S_ 1 := (fun x v => Host.reduce IntOp.andi x v reducesTo_S8x8192x64_S_d0_1_2 h_S_) main_v6 main_c_1
  let main_v8 : IVec S_ 1 := andi main_v3 main_v7
  main_v8
-- ==== Kernel.lean ====
abbrev S2097152 : Shape := ⟨1, ![2097152]⟩
abbrev S8x8192x64 : Shape := ⟨3, ![8, 8192, 64]⟩
abbrev S8x8192 : Shape := ⟨2, ![8, 8192]⟩
abbrev S8x8192x1 : Shape := ⟨3, ![8, 8192, 1]⟩
abbrev S_ : Shape := ⟨0, ![]⟩
abbrev S2097152x1 : Shape := ⟨2, ![2097152, 1]⟩
abbrev S2097152x2 : Shape := ⟨2, ![2097152, 2]⟩
abbrev S2097152x64 : Shape := ⟨2, ![2097152, 64]⟩
abbrev S8192x64 : Shape := ⟨2, ![8192, 64]⟩
abbrev S8192x1 : Shape := ⟨2, ![8192, 1]⟩
abbrev S65536x64 : Shape := ⟨2, ![65536, 64]⟩

abbrev nBuf : Space → Nat
  | .hbm => 48
  | .vmem => 6
  | .smem => 0
  | _ => 0

abbrev bufTy : (tb : Table) → Fin (tcTables nBuf tb) → BufTy
  | .hbm, ⟨0, _⟩ => ⟨S2097152, .i32⟩
  | .hbm, ⟨1, _⟩ => ⟨S2097152, .i32⟩
  | .hbm, ⟨2, _⟩ => ⟨S2097152, .i32⟩
  | .hbm, ⟨3, _⟩ => ⟨S2097152, .f32⟩
  | .hbm, ⟨4, _⟩ => ⟨S8x8192x64, .f32⟩
  | .hbm, ⟨5, _⟩ => ⟨S8x8192, .i1⟩
  | .hbm, ⟨6, _⟩ => ⟨S8x8192, .i1⟩
  | .hbm, ⟨7, _⟩ => ⟨S8x8192x1, .i1⟩
  | .hbm, ⟨8, _⟩ => ⟨S_, .f32⟩
  | .hbm, ⟨9, _⟩ => ⟨S_, .f32⟩
  | .hbm, ⟨10, _⟩ => ⟨S8x8192x64, .i1⟩
  | .hbm, ⟨11, _⟩ => ⟨S8x8192x64, .f32⟩
  | .hbm, ⟨12, _⟩ => ⟨S8x8192x64, .f32⟩
  | .hbm, ⟨13, _⟩ => ⟨S_, .i32⟩
  | .hbm, ⟨14, _⟩ => ⟨S2097152, .i32⟩
  | .hbm, ⟨15, _⟩ => ⟨S2097152, .i1⟩
  | .hbm, ⟨16, _⟩ => ⟨S_, .i32⟩
  | .hbm, ⟨17, _⟩ => ⟨S2097152, .i32⟩
  | .hbm, ⟨18, _⟩ => ⟨S2097152, .i32⟩
  | .hbm, ⟨19, _⟩ => ⟨S2097152, .i32⟩
  | .hbm, ⟨20, _⟩ => ⟨S_, .i32⟩
  | .hbm, ⟨21, _⟩ => ⟨S2097152, .i32⟩
  | .hbm, ⟨22, _⟩ => ⟨S2097152, .i1⟩
  | .hbm, ⟨23, _⟩ => ⟨S_, .i32⟩
  | .hbm, ⟨24, _⟩ => ⟨S2097152, .i32⟩
  | .hbm, ⟨25, _⟩ => ⟨S2097152, .i32⟩
  | .hbm, ⟨26, _⟩ => ⟨S2097152, .i32⟩
  | .hbm, ⟨27, _⟩ => ⟨S2097152x1, .i32⟩
  | .hbm, ⟨28, _⟩ => ⟨S2097152x1, .i32⟩
  | .hbm, ⟨29, _⟩ => ⟨S2097152x2, .i32⟩
  | .hbm, ⟨30, _⟩ => ⟨S2097152x64, .f32⟩
  | .hbm, ⟨31, _⟩ => ⟨S2097152x1, .f32⟩
  | .hbm, ⟨32, _⟩ => ⟨S2097152x64, .f32⟩
  | .hbm, ⟨33, _⟩ => ⟨S_, .i32⟩
  | .hbm, ⟨34, _⟩ => ⟨S2097152, .i32⟩
  | .hbm, ⟨35, _⟩ => ⟨S2097152, .i32⟩
  | .hbm, ⟨36, _⟩ => ⟨S2097152, .i32⟩
  | .hbm, ⟨37, _⟩ => ⟨S_, .f32⟩
  | .hbm, ⟨38, _⟩ => ⟨S65536x64, .f32⟩
  | .hbm, ⟨39, _⟩ => ⟨S2097152x1, .i32⟩
  | .hbm, ⟨40, _⟩ => ⟨S65536x64, .f32⟩
  | .hbm, ⟨41, _⟩ => ⟨S8x8192x64, .f32⟩
  | .hbm, ⟨42, _⟩ => ⟨S8x8192x1, .i1⟩
  | .hbm, ⟨43, _⟩ => ⟨S_, .f32⟩
  | .hbm, ⟨44, _⟩ => ⟨S_, .f32⟩
  | .hbm, ⟨45, _⟩ => ⟨S8x8192x64, .i1⟩
  | .hbm, ⟨46, _⟩ => ⟨S8x8192x64, .f32⟩
  | .hbm, ⟨47, _⟩ => ⟨S8x8192x64, .f32⟩
  | .local _ .vmem, ⟨0, _⟩ => ⟨S8192x64, .f32⟩
  | .local _ .vmem, ⟨1, _⟩ => ⟨S8192x64, .f32⟩
  | .local _ .vmem, ⟨2, _⟩ => ⟨S8192x1, .f32⟩
  | .local _ .vmem, ⟨3, _⟩ => ⟨S8192x1, .f32⟩
  | .local _ .vmem, ⟨4, _⟩ => ⟨S8192x64, .f32⟩
  | .local _ .vmem, ⟨5, _⟩ => ⟨S8192x64, .f32⟩
  | _, _ => ⟨S2097152, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v26 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S8x8192_S8x8192x1_0_1 : S8x8192.BroadcastsInDim S8x8192x1 (![0, 1] : Fin 2 → Fin S8x8192x1.rank)
  bcast_S8x8192x1_S8x8192x64_0_1_2 : S8x8192x1.BroadcastsInDim S8x8192x64 (![0, 1, 2] : Fin 3 → Fin S8x8192x64.rank)
  bcast_S_S8x8192x64 : S_.BroadcastsInDim S8x8192x64 (![] : Fin 0 → Fin S8x8192x64.rank)
  bcast_S_S2097152 : S_.BroadcastsInDim S2097152 (![] : Fin 0 → Fin S2097152.rank)
  bcast_S2097152_S2097152x1_0 : S2097152.BroadcastsInDim S2097152x1 (![0] : Fin 1 → Fin S2097152x1.rank)
  concatenates_S2097152x1_S2097152x1_S2097152x2_d1 : Shape.Concatenates [S2097152x1, S2097152x1] S2097152x2 1
  shapeCasts_S2097152_S2097152x1 : S2097152.ShapeCasts S2097152x1
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  broadcasts_S8192x1_S8192x64 : S8192x1.Broadcasts S8192x64
  bcast_S_S65536x64 : S_.BroadcastsInDim S65536x64 (![] : Fin 0 → Fin S65536x64.rank)
  shapeCasts_S65536x64_S8x8192x64 : S65536x64.ShapeCasts S8x8192x64
  gather_S8x8192x64_S2097152x2_S2097152x64_1_01_n_n_01_1_1164_wf : GatherDims.WF S8x8192x64 S2097152x2 S2097152x64 [1] [0, 1] [] [0, 1] [] 1 ![1, 1, 64]
  scatter_S65536x64_S2097152x1_S2097152x64_1_0_0_1_wf : ScatterDims.WF S65536x64 S2097152x1 S2097152x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S2097152x64.size a
  hwx0_0 : ∀ i : grid0.Coords, EltTy.bits .f32 = 32 ∨ (Rect.block (s := S2097152x64) S8192x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x1.size a ≤ S2097152x1.size a
  hwx0_1 : ∀ i : grid0.Coords, EltTy.bits .f32 = 32 ∨ (Rect.block (s := S2097152x1) S8192x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x64.size a ≤ S2097152x64.size a
  hwx0_2 : ∀ i : grid0.Coords, EltTy.bits .f32 = 32 ∨ (Rect.block (s := S2097152x64) S8192x64.size (cc0_transform_2 i) (hinb0_2 i)).WholeWords (EltTy.packing .f32)

variable [Facts₀]

def gather_S8x8192x64_S2097152x2_S2097152x64_1_01_n_n_01_1_1164 : GatherDims S8x8192x64 S2097152x2 S2097152x64 where
  offsetDims := [1]
  collapsedSliceDims := [0, 1]
  operandBatchingDims := []
  startIndicesBatchingDims := []
  startIndexMap := [0, 1]
  indexVectorDim := 1
  sliceSizes := ![1, 1, 64]
  wf := gather_S8x8192x64_S2097152x2_S2097152x64_1_01_n_n_01_1_1164_wf
def scatter_S65536x64_S2097152x1_S2097152x64_1_0_0_1 : ScatterDims S65536x64 S2097152x1 S2097152x64 where
  updateWindowDims := [1]
  insertedWindowDims := [0]
  scatterDimsToOperandDims := [0]
  indexVectorDim := 1
  wf := scatter_S65536x64_S2097152x1_S2097152x64_1_0_0_1_wf

abbrev win0_0 : Pipeline.Window sig grid0 :=
  Pipeline.Window.ofSpec (Memref.whole main_v15) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S8192x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S8192x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2097152 : Shape := ⟨1, ![2097152]⟩
abbrev S8x8192x64 : Shape := ⟨3, ![8, 8192, 64]⟩
abbrev S8x8192 : Shape := ⟨2, ![8, 8192]⟩
abbrev S8x8192x1 : Shape := ⟨3, ![8, 8192, 1]⟩
abbrev S_ : Shape := ⟨0, ![]⟩
abbrev S2097152x1 : Shape := ⟨2, ![2097152, 1]⟩
abbrev S2097152x2 : Shape := ⟨2, ![2097152, 2]⟩
abbrev S2097152x64 : Shape := ⟨2, ![2097152, 64]⟩
abbrev S65536x64 : Shape := ⟨2, ![65536, 64]⟩

abbrev nBuf : Space → Nat
  | .hbm => 49
  | .vmem => 0
  | .smem => 0
  | _ => 0

abbrev bufTy : (tb : Table) → Fin (tcTables nBuf tb) → BufTy
  | .hbm, ⟨0, _⟩ => ⟨S2097152, .i32⟩
  | .hbm, ⟨1, _⟩ => ⟨S2097152, .i32⟩
  | .hbm, ⟨2, _⟩ => ⟨S2097152, .i32⟩
  | .hbm, ⟨3, _⟩ => ⟨S2097152, .f32⟩
  | .hbm, ⟨4, _⟩ => ⟨S8x8192x64, .f32⟩
  | .hbm, ⟨5, _⟩ => ⟨S8x8192, .i1⟩
  | .hbm, ⟨6, _⟩ => ⟨S8x8192, .i1⟩
  | .hbm, ⟨7, _⟩ => ⟨S8x8192x1, .i1⟩
  | .hbm, ⟨8, _⟩ => ⟨S_, .f32⟩
  | .hbm, ⟨9, _⟩ => ⟨S_, .f32⟩
  | .hbm, ⟨10, _⟩ => ⟨S8x8192x64, .i1⟩
  | .hbm, ⟨11, _⟩ => ⟨S8x8192x64, .f32⟩
  | .hbm, ⟨12, _⟩ => ⟨S8x8192x64, .f32⟩
  | .hbm, ⟨13, _⟩ => ⟨S2097152x1, .f32⟩
  | .hbm, ⟨14, _⟩ => ⟨S_, .i32⟩
  | .hbm, ⟨15, _⟩ => ⟨S2097152, .i32⟩
  | .hbm, ⟨16, _⟩ => ⟨S2097152, .i1⟩
  | .hbm, ⟨17, _⟩ => ⟨S_, .i32⟩
  | .hbm, ⟨18, _⟩ => ⟨S2097152, .i32⟩
  | .hbm, ⟨19, _⟩ => ⟨S2097152, .i32⟩
  | .hbm, ⟨20, _⟩ => ⟨S2097152, .i32⟩
  | .hbm, ⟨21, _⟩ => ⟨S_, .i32⟩
  | .hbm, ⟨22, _⟩ => ⟨S2097152, .i32⟩
  | .hbm, ⟨23, _⟩ => ⟨S2097152, .i1⟩
  | .hbm, ⟨24, _⟩ => ⟨S_, .i32⟩
  | .hbm, ⟨25, _⟩ => ⟨S2097152, .i32⟩
  | .hbm, ⟨26, _⟩ => ⟨S2097152, .i32⟩
  | .hbm, ⟨27, _⟩ => ⟨S2097152, .i32⟩
  | .hbm, ⟨28, _⟩ => ⟨S2097152x1, .i32⟩
  | .hbm, ⟨29, _⟩ => ⟨S2097152x1, .i32⟩
  | .hbm, ⟨30, _⟩ => ⟨S2097152x2, .i32⟩
  | .hbm, ⟨31, _⟩ => ⟨S2097152x64, .f32⟩
  | .hbm, ⟨32, _⟩ => ⟨S2097152x64, .f32⟩
  | .hbm, ⟨33, _⟩ => ⟨S2097152x64, .f32⟩
  | .hbm, ⟨34, _⟩ => ⟨S_, .i32⟩
  | .hbm, ⟨35, _⟩ => ⟨S2097152, .i32⟩
  | .hbm, ⟨36, _⟩ => ⟨S2097152, .i32⟩
  | .hbm, ⟨37, _⟩ => ⟨S2097152, .i32⟩
  | .hbm, ⟨38, _⟩ => ⟨S_, .f32⟩
  | .hbm, ⟨39, _⟩ => ⟨S65536x64, .f32⟩
  | .hbm, ⟨40, _⟩ => ⟨S2097152x1, .i32⟩
  | .hbm, ⟨41, _⟩ => ⟨S65536x64, .f32⟩
  | .hbm, ⟨42, _⟩ => ⟨S8x8192x64, .f32⟩
  | .hbm, ⟨43, _⟩ => ⟨S8x8192x1, .i1⟩
  | .hbm, ⟨44, _⟩ => ⟨S_, .f32⟩
  | .hbm, ⟨45, _⟩ => ⟨S_, .f32⟩
  | .hbm, ⟨46, _⟩ => ⟨S8x8192x64, .i1⟩
  | .hbm, ⟨47, _⟩ => ⟨S8x8192x64, .f32⟩
  | .hbm, ⟨48, _⟩ => ⟨S8x8192x64, .f32⟩
  | _, _ => ⟨S2097152, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_v4 : Ref sig .tc := ⟨.hbm, 16, rfl⟩
abbrev main_c_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c_1 : Ref sig .tc := ⟨.hbm, 21, rfl⟩
abbrev main_v8 : Ref sig .tc := ⟨.hbm, 22, rfl⟩
abbrev main_v9 : Ref sig .tc := ⟨.hbm, 23, rfl⟩
abbrev main_c_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v27 : Ref sig .tc := ⟨.hbm, 48, rfl⟩

abbrev nD : Nat := 1
abbrev τ : Topo := Topo.v7x

variable {F : FTy → Type} [FloatOps F]

class Facts₀ : Prop where
  bcast_S8x8192_S8x8192x1_0_1 : S8x8192.BroadcastsInDim S8x8192x1 (![0, 1] : Fin 2 → Fin S8x8192x1.rank)
  bcast_S8x8192x1_S8x8192x64_0_1_2 : S8x8192x1.BroadcastsInDim S8x8192x64 (![0, 1, 2] : Fin 3 → Fin S8x8192x64.rank)
  bcast_S_S8x8192x64 : S_.BroadcastsInDim S8x8192x64 (![] : Fin 0 → Fin S8x8192x64.rank)
  bcast_S2097152_S2097152x1_0 : S2097152.BroadcastsInDim S2097152x1 (![0] : Fin 1 → Fin S2097152x1.rank)
  bcast_S_S2097152 : S_.BroadcastsInDim S2097152 (![] : Fin 0 → Fin S2097152.rank)
  concatenates_S2097152x1_S2097152x1_S2097152x2_d1 : Shape.Concatenates [S2097152x1, S2097152x1] S2097152x2 1
  bcast_S2097152x1_S2097152x64_0_1 : S2097152x1.BroadcastsInDim S2097152x64 (![0, 1] : Fin 2 → Fin S2097152x64.rank)
  bcast_S_S65536x64 : S_.BroadcastsInDim S65536x64 (![] : Fin 0 → Fin S65536x64.rank)
  shapeCasts_S65536x64_S8x8192x64 : S65536x64.ShapeCasts S8x8192x64
  gather_S8x8192x64_S2097152x2_S2097152x64_1_01_n_n_01_1_1164_wf : GatherDims.WF S8x8192x64 S2097152x2 S2097152x64 [1] [0, 1] [] [0, 1] [] 1 ![1, 1, 64]
  scatter_S65536x64_S2097152x1_S2097152x64_1_0_0_1_wf : ScatterDims.WF S65536x64 S2097152x1 S2097152x64 [1] [0] [0] 1

variable [Facts₀]

def gather_S8x8192x64_S2097152x2_S2097152x64_1_01_n_n_01_1_1164 : GatherDims S8x8192x64 S2097152x2 S2097152x64 where
  offsetDims := [1]
  collapsedSliceDims := [0, 1]
  operandBatchingDims := []
  startIndicesBatchingDims := []
  startIndexMap := [0, 1]
  indexVectorDim := 1
  sliceSizes := ![1, 1, 64]
  wf := gather_S8x8192x64_S2097152x2_S2097152x64_1_01_n_n_01_1_1164_wf
def scatter_S65536x64_S2097152x1_S2097152x64_1_0_0_1 : ScatterDims S65536x64 S2097152x1 S2097152x64 where
  updateWindowDims := [1]
  insertedWindowDims := [0]
  scatterDimsToOperandDims := [0]
  indexVectorDim := 1
  wf := scatter_S65536x64_S2097152x1_S2097152x64_1_0_0_1_wf

class Facts : Prop extends Facts₀ where

variable [Facts]
-- ==== Proof.HostParts.lean ====
/-
  The pieces of the computation that both programs share, each named once, and the one law that joins the
  two spellings of the per-edge messages.

  With `Xf = where(X_mask, X, 0)`, edge `e` carries the message row `A_vals[e] · Xf[A_batch[e], A_col[e], :]`;
  the result sums the messages of the edges whose target `A_batch[e]·8192 + A_row[e]` is a given row, reshapes
  [65536, 64] to [8, 8192, 64] and zeroes the rows `tarX_mask` excludes.

  * `gatheredRows`: the masked features gathered per edge, `Xf[A_batch[e], A_col[e], :]` (negative indices
    wrapped as jnp does), a [2097152, 64] array;
  * `sumAndMask`: everything after the messages — the scatter-add into a zero [65536, 64] array at the
    linearized targets, the reshape and the final mask — as a function of the message array;
  * `scaled gx w`: entry (e, d) is `gx (e, d) · w (e, 0)` for a [2097152, 1] column `w`: the kernel's side.
  The reference writes the messages as `bcast(A_vals) · gathered`; entry by entry the two are the same product
  with the factors exchanged, and multiplication of extended reals commutes (no finiteness is needed).
-/
import proofs.«166348_j42666205119405_2_alg».proof.Proof.Gen.KernelIdeal
import Idealize.ShloMosaic.PureOps.Ideal
import Idealize.ShloMosaic.Lib.Pipeline.Value
import Idealize.ShloMosaic.Lib.ValueIdx

noncomputable section

namespace Cert.KernelIdeal.Parts

open Cert.KernelIdeal Cert.KernelIdeal.Gen Idealize.ShloMosaic
open Idealize.ShloMosaic.ValueIdx

variable {F : FTy → Type} [FloatOps F]

/-- Row `e` of a [2097152, 64] array scaled by entry (e, 0) of a [2097152, 1] column. -/
def scaled (gx : S2097152x64.Idx → Elt F .f32) (w : S2097152x1.Idx → Elt F .f32) : S2097152x64.Idx → Elt F .f32 :=
  fun i => FloatOps.mulf (gx i) (w (ix2 (i 0) (0 : Fin 1)))

/-- The masked features gathered per edge: row `(A_batch[e], A_col[e])` of `where(X_mask, X, 0)`. -/
def gatheredRows (a0 a2 : IVec S2097152 32) (x : FVec F S8x8192x64 .f32) (k : IVec S8x8192 1) : FVec F S2097152x64 .f32 :=
  Host.gather gather_S8x8192x64_S2097152x2_S2097152x64_1_01_n_n_01_1_1164
    (select (broadcastInDim S8x8192x64 ![0, 1, 2] bcast_S8x8192x1_S8x8192x64_0_1_2 (broadcastInDim S8x8192x1 ![0, 1] bcast_S8x8192_S8x8192x1_0_1 k))
      x (broadcastInDim S8x8192x64 ![] bcast_S_S8x8192x64 (id (constant S_ .f32 0x00000000#32))))
    (concatenate S2097152x2 1
      [⟨S2097152x1, (broadcastInDim S2097152x1 ![0] bcast_S2097152_S2097152x1_0 (select (cmpi .slt a0 (broadcastInDim S2097152 ![] bcast_S_S2097152 (constantI S_ 32 0#32))) (addi a0 (broadcastInDim S2097152 ![] bcast_S_S2097152 (constantI S_ 32 8#32))) a0))⟩,
       ⟨S2097152x1, (broadcastInDim S2097152x1 ![0] bcast_S2097152_S2097152x1_0 (select (cmpi .slt a2 (broadcastInDim S2097152 ![] bcast_S_S2097152 (constantI S_ 32 0#32))) (addi a2 (broadcastInDim S2097152 ![] bcast_S_S2097152 (constantI S_ 32 8192#32))) a2))⟩]
      concatenates_S2097152x1_S2097152x1_S2097152x2_d1)

/-- From the per-edge messages to the result: summed into row `A_batch[e]·8192 + A_row[e]` of a zero
    [65536, 64] array, reshaped to [8, 8192, 64], and zeroed where `tarX_mask` is off. -/
def sumAndMask (a0 a1 : IVec S2097152 32) (k : IVec S8x8192 1) (msg : FVec F S2097152x64 .f32) : FVec F S8x8192x64 .f32 :=
  select (broadcastInDim S8x8192x64 ![0, 1, 2] bcast_S8x8192x1_S8x8192x64_0_1_2 (broadcastInDim S8x8192x1 ![0, 1] bcast_S8x8192_S8x8192x1_0_1 k))
    (shapeCast _ (Host.scatterAdd scatter_S65536x64_S2097152x1_S2097152x64_1_0_0_1
      (broadcastInDim S65536x64 ![] bcast_S_S65536x64 (constant S_ .f32 0x00000000#32))
      (broadcastInDim S2097152x1 ![0] bcast_S2097152_S2097152x1_0 (addi (muli a0 (broadcastInDim S2097152 ![] bcast_S_S2097152 (constantI S_ 32 8192#32))) a1))
      msg) shapeCasts_S65536x64_S8x8192x64)
    (broadcastInDim S8x8192x64 ![] bcast_S_S8x8192x64 (id (constant S_ .f32 0x00000000#32)))

/-- On the extended reals the kernel's messages (gathered row times the weight column) are the reference's
    (the weights broadcast along the row, times the gathered rows): the same product, factors exchanged. -/
theorem scaled_eq_bcast_mul (gx : FVec Ideal S2097152x64 .f32) (a3 : FVec Ideal S2097152 .f32)
    (h1 : S2097152.ShapeCasts S2097152x1) (h2 : S2097152.BroadcastsInDim S2097152x1 (![0] : Fin 1 → Fin S2097152x1.rank))
    (h3 : S2097152x1.BroadcastsInDim S2097152x64 (![0, 1] : Fin 2 → Fin S2097152x64.rank)) :
    scaled (F := Ideal) gx (shapeCast S2097152x1 a3 h1)
      = mulf (broadcastInDim S2097152x64 ![0, 1] h3 (broadcastInDim S2097152x1 ![0] h2 a3)) gx := by
  funext i
  obtain ⟨e, d, rfl⟩ : ∃ (e : Fin 2097152) (d : Fin 64), i = ix2 e d := ⟨i 0, i 1, eq_ix2 i⟩
  unfold scaled
  rw [mulf_apply]
  rw [broadcastInDim_apply ![0, 1] h3 _ (ix2 e d) (ix2 e (0 : Fin 1))
      (fun a => by match a with | ⟨0, _⟩ => rfl | ⟨1, _⟩ => rfl),
    broadcastInDim_apply ![0] h2 a3 (ix2 e (0 : Fin 1)) (ix1 e) (fun a => by match a with | ⟨0, _⟩ => rfl),
    shapeCast_apply a3 h1 (ix2 (ix2 e d 0) (0 : Fin 1)) (ix1 e)
      (by rw [Shape.rowMajor_val_one, Shape.rowMajor_val_two]; show e.val = e.val * 1 + 0; omega)]
  exact mul_comm _ _

end Cert.KernelIdeal.Parts

end
-- ==== Proof.KernelMsg.lean ====
/-
  The per-edge message array the kernel's region leaves.

  The region multiplies each row of the gathered feature array by that edge's weight: block `t` of the
  [2097152, 64] result is rows `8192·t … 8192·t + 8191`, and entry (e, d) of it is
  `gx (e, d) · w (e, 0)`, where `gx` is the gathered [2097152, 64] array and `w` the [2097152, 1] column of
  weights, both as the region finds them.  The 256 blocks tile the rows, so the array after the region is
  that one function of `gx` and `w`, index by index.
-/
import proofs.«166348_j42666205119405_2_alg».proof.Defs
import proofs.«166348_j42666205119405_2_alg».proof.Proof.Gen.KernelIdeal.Frame
import proofs.«166348_j42666205119405_2_alg».proof.Proof.HostParts
import Idealize.ShloMosaic.Lib.Pipeline.Value
import Idealize.ShloMosaic.Lib.ValueIdx
import Idealize.ShloMosaic.Lib.Tactic

noncomputable section

namespace Cert.KernelIdeal.Msg

open Cert.KernelIdeal Cert.KernelIdeal.Gen Idealize.ShloMosaic Idealize.ShloMosaic.TcCoe Idealize.SL.Sem
open Idealize.ShloMosaic.Pipeline (Dat)
open Idealize.ShloMosaic.ValueIdx
open Cert.KernelIdeal.Parts

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- The body's product at an entry of the block: the feature times the weight of the entry's row. -/
theorem pay_apply (x0 : Vec F S8192x64 .f32) (x1 : Vec F S8192x1 .f32) (j : S8192x64.Idx) :
    k0_pay1 x0 x1 j = FloatOps.mulf (x0 j) (x1 (ix2 (j 0) (0 : Fin 1))) := by
  unfold k0_pay1
  simp only [shapeCast_self]
  show FloatOps.mulf (x0 j) (broadcastTo S8192x64 x1 _ j) = _
  refine congrArg _ (broadcastTo_apply x1 _ j (ix2 (j 0) (0 : Fin 1)) fun a => ?_)
  match a with
  | ⟨0, _⟩ => rfl
  | ⟨1, _⟩ => rfl

/-- The three index maps, decided over the 256 points: every window's block at point `t` is block row `t`,
    block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the scaled array. -/
theorem flushed_eq (c : Dev nD) (t : Fin cfg0.N) :
    (dats m 0 c).flushed 2 t = ((cfg0.win 2).blk t).view.read (Elt F) (scaled (V m c main_v15) (V m c main_v16)) := by
  show (cfg0.win 2).cut (grid0.coords t) ((dats m 0 c).after 2 t) = _
  rw [after0_2]
  unfold out0_2
  rw [View.canon_unit_zero hz]
  simp only [View.ld_unit_zero (S := S8192x64) hz, View.ld_unit_zero (S := S8192x1) hz]
  obtain ⟨e0, e1, e2, e3, e4, e5⟩ := idx_facts t
  funext j
  show k0_pay1 (iblk m c 0 t) (iblk m c 1 t) j
    = scaled (V m c main_v15) (V m c main_v16) (((cfg0.win 2).blk t).view.emb j)
  refine (pay_apply (iblk m c 0 t) (iblk m c 1 t) j).trans ?_
  unfold scaled
  show FloatOps.mulf (V m c main_v15 (((cfg0.win 0).blk t).view.emb j))
      (V m c main_v16 (((cfg0.win 1).blk t).view.emb (ix2 (j 0) (0 : Fin 1))))
    = FloatOps.mulf (V m c main_v15 (((cfg0.win 2).blk t).view.emb j))
      (V m c main_v16 (ix2 ((((cfg0.win 2).blk t).view.emb j) 0) (0 : Fin 1)))
  have hj0 : (j 0).val < 8192 := (j 0).isLt
  have hj1 : (j 1).val < 64 := (j 1).isLt
  have h0 : ((cfg0.win 0).blk t).view.emb j = ((cfg0.win 2).blk t).view.emb j := by
    funext a; apply Fin.ext
    match a with
    | ⟨0, _⟩ => show win0_0.index t (0 : Fin 2) * 8192 + 1 * (j 0).val = win0_2.index t (0 : Fin 2) * 8192 + 1 * (j 0).val; omega
    | ⟨1, _⟩ => show win0_0.index t (1 : Fin 2) * 64 + 1 * (j 1).val = win0_2.index t (1 : Fin 2) * 64 + 1 * (j 1).val; omega
  have h1 : ((cfg0.win 1).blk t).view.emb (ix2 (j 0) (0 : Fin 1))
      = ix2 ((((cfg0.win 2).blk t).view.emb j) 0) (0 : Fin 1) := by
    funext a; apply Fin.ext
    match a with
    | ⟨0, _⟩ => show win0_1.index t (0 : Fin 2) * 8192 + 1 * (j 0).val = win0_2.index t (0 : Fin 2) * 8192 + 1 * (j 0).val; omega
    | ⟨1, _⟩ => show win0_1.index t (1 : Fin 2) * 1 + 1 * 0 = 0; omega
  rw [h0, h1]
  rfl

/-- An index of the array lies in point `t`'s block iff each coordinate lies in the block's range on its axis. -/
theorem mem_blk (t : Fin cfg0.N) (i : S2097152x64.Idx) :
    i ∈ ((cfg0.win 2).blk t).view.set ↔ ∀ a : Fin 2, win0_2.index t a * S8192x64.size a ≤ (i a).val ∧ (i a).val < win0_2.index t a * S8192x64.size a + S8192x64.size a := by
  show i ∈ ((View.whole main_v17).slice (win0_2.rect t)).set ↔ _
  rw [View.set_slice_whole, Rect.mem_set_unit]
  exact Iff.rfl

/-- Row `r` lies in the block of point `r / 8192`: the 256 blocks of 8192 rows tile the 2097152 rows. -/
theorem cover (i : S2097152x64.Idx) :
    ∃ t : Fin cfg0.N, (cfg0.win 2).flush t = true ∧ i ∈ ((cfg0.win 2).blk t).view.set := by
  have hi0 : (i 0).val < 2097152 := (i 0).isLt
  have hi1 : (i 1).val < 64 := (i 1).isLt
  have hN : cfg0.N = 256 := N_0
  obtain ⟨t, ht⟩ : ∃ t : Fin cfg0.N, t.val = (i 0).val / 8192 := ⟨⟨(i 0).val / 8192, by rw [hN]; omega⟩, rfl⟩
  obtain ⟨-, -, -, -, e4, e5⟩ := idx_facts t
  refine ⟨t, flush0_2 t, ?_⟩
  rw [mem_blk]
  intro a
  match a with
  | ⟨0, _⟩ =>
    show win0_2.index t (0 : Fin 2) * 8192 ≤ (i 0).val ∧ (i 0).val < win0_2.index t (0 : Fin 2) * 8192 + 8192
    rw [e4, ht]; omega
  | ⟨1, _⟩ =>
    show win0_2.index t (1 : Fin 2) * 64 ≤ (i 1).val ∧ (i 1).val < win0_2.index t (1 : Fin 2) * 64 + 64
    rw [e5]; omega

/-- The message array after the region: every row of the gathered features scaled by its edge's weight. -/
theorem final (c : Dev nD) : (dats m 0 c).arrAt 2 cfg0.N = scaled (V m c main_v15) (V m c main_v16) :=
  (dats m 0 c).arrAt_eq_of_cover 2 (scaled (V m c main_v15) (V m c main_v16)) (fun t _ => flushed_eq m c t) cover

end Cert.KernelIdeal.Msg

end
-- ==== Proof.KernelRun.lean ====
/-
  The kernel program's run, read: its result in the shared pieces.

  Before the region the host masks the features and gathers a row per edge (`gatheredRows`) and reshapes the
  weights [2097152] → [2097152, 1]; the region leaves every gathered row scaled by its edge's weight
  (`Msg.final`); after the region the host scatter-adds the messages into the target rows, reshapes and
  masks (`sumAndMask`).  So the result is `sumAndMask` of `scaled (gatheredRows …) (reshape A_vals)`.
-/
import proofs.«166348_j42666205119405_2_alg».proof.Proof.KernelMsg
import Idealize.ShloMosaic.Lib.StableHlo.Run

noncomputable section

namespace Cert.KernelIdeal.Msg

open Cert.KernelIdeal Cert.KernelIdeal.Gen Idealize.ShloMosaic Idealize.ShloMosaic.TcCoe Idealize.SL.Sem
open Idealize.ShloMosaic.Pipeline (Dat)
open Idealize.ShloMosaic.StableHlo
open Cert.KernelIdeal.Parts

variable {F : FTy → Type} [FloatOps F]
variable (m : (ℓ : Loc nD τ sig) → Buf (Elt F) ℓ) (ρ : Dev nD → PrngReg)

/-- The region finds the gathered rows of the masked features in its first operand. -/
theorem V_v15 (c : Dev nD) : (V m c main_v15 : S2097152x64.Idx → Elt F .f32)
    = gatheredRows (m ((c : Thread nD τ).loc main_arg0)) (m ((c : Thread nD τ).loc main_arg2))
        (m ((c : Thread nD τ).loc main_arg4)) (m ((c : Thread nD τ).loc main_arg5)) := by
  dsimp only [Gen.V, Gen.V0]
  simp only [Gen.hostOps0, Gen.hostOps0_1, Gen.hostOps0_2, List.flatten_cons, List.flatten_nil, List.append_nil,
    List.cons_append, List.nil_append]
  after_results_simp
  rfl

/-- and the weights as a column in its second. -/
theorem V_v16 (c : Dev nD) : (V m c main_v16 : S2097152x1.Idx → Elt F .f32)
    = shapeCast S2097152x1 (m ((c : Thread nD τ).loc main_arg3)) shapeCasts_S2097152_S2097152x1 := by
  dsimp only [Gen.V, Gen.V0]
  simp only [Gen.hostOps0, Gen.hostOps0_1, Gen.hostOps0_2, List.flatten_cons, List.flatten_nil, List.append_nil,
    List.cons_append, List.nil_append]
  after_results_simp
  rfl

/-- What the host lines after the region leave in the result buffer, from the message array the region left. -/
theorem tail_eq (c : Dev nD) :
    Pipeline.afterTail₀ cfgs (dats m) 0 (V0 m) [hostOps1, hostOps1_1] c main_v26
      = sumAndMask (m ((c : Thread nD τ).loc main_arg0)) (m ((c : Thread nD τ).loc main_arg1))
          (m ((c : Thread nD τ).loc main_arg6)) ((dats m 0 c).arrAt 2 cfg0.N) := by
  unfold Pipeline.afterTail₀
  simp only [Gen.hostOps1, Gen.hostOps1_1, List.flatten_cons, List.flatten_nil, List.append_nil,
    List.cons_append, List.nil_append]
  after_results_simp
  have e6 : Pipeline.withArrays (cfgs 0).spec c (V0 m c) (fun w => (dats m 0 c).arrAt w (cfgs 0).N) (Proc.devRef .tc main_arg6)
      = m ((c : Thread nD τ).loc main_arg6) :=
    (Pipeline.withArrays_of_ne _ c (V0 m c) _ main_arg6 (by exact (by decide : ∀ w, Pipeline.arrRef spec0 w ≠ main_arg6))).trans
      (V_main_arg6 m c)
  have e0 : Pipeline.withArrays (cfgs 0).spec c (V0 m c) (fun w => (dats m 0 c).arrAt w (cfgs 0).N) (Proc.devRef .tc main_arg0)
      = m ((c : Thread nD τ).loc main_arg0) :=
    (Pipeline.withArrays_of_ne _ c (V0 m c) _ main_arg0 (by exact (by decide : ∀ w, Pipeline.arrRef spec0 w ≠ main_arg0))).trans
      (V_main_arg0 m c)
  have e1 : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans
      (V_main_arg1 m c)
  have e17 : Pipeline.withArrays (cfgs 0).spec c (V0 m c) (fun w => (dats m 0 c).arrAt w (cfgs 0).N) (Proc.devRef .tc main_v17)
      = (dats m 0 c).arrAt 2 cfg0.N :=
    Pipeline.withArrays_arr spec0 launch0.win.arr_inj c (V0 m c) _ 2
  rw [e6, e0, e1, e17]
  rfl

/-- The kernel program's run, read: every weakly fair execution terminates with the result at the scatter-added,
    reshaped and masked messages, each message the gathered row scaled by its edge's weight, and the arguments unchanged. -/
theorem run : θ_run defs (onTc (τ := τ) (main (F := F))) ⟨m, fun _ => 0, ρ⟩ fun r => ∀ c : Dev nD,
      r.2.mem ((c.tc : Thread nD τ).loc main_v26)
        = sumAndMask (m ((c.tc : Thread nD τ).loc main_arg0)) (m ((c.tc : Thread nD τ).loc main_arg1)) (m ((c.tc : Thread nD τ).loc main_arg6))
            (scaled (gatheredRows (m ((c.tc : Thread nD τ).loc main_arg0)) (m ((c.tc : Thread nD τ).loc main_arg2))
                (m ((c.tc : Thread nD τ).loc main_arg4)) (m ((c.tc : Thread nD τ).loc main_arg5)))
              (shapeCast S2097152x1 (m ((c.tc : Thread nD τ).loc main_arg3)) shapeCasts_S2097152_S2097152x1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨
      ((h c).2 main_v26 (Pipeline.mem_restRefs_of main_v26 (by decide) (by decide))).trans
        ((tail_eq m c).trans (by rw [final, V_v15, V_v16])),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

end Cert.KernelIdeal.Msg

end
-- ==== Proof.RefRun.lean ====
/-
  The reference's result in the shared pieces.

  The reference masks the features, gathers a row per edge, multiplies each gathered row by the edge's weight
  broadcast along it, scatter-adds the products into the target rows, reshapes and masks: its composed term is
  `sumAndMask` of the product of the broadcast weights with `gatheredRows`, by unfolding the two names.
-/
import proofs.«166348_j42666205119405_2_alg».proof.Proof.Gen.ReferenceIdeal.Run
import proofs.«166348_j42666205119405_2_alg».proof.Proof.HostParts

noncomputable section

namespace Cert.ReferenceIdeal.RefValue

open Cert.ReferenceIdeal Cert.ReferenceIdeal.Gen Idealize.ShloMosaic
open Cert.KernelIdeal.Parts

/-- The reference's composed term of its arguments, with the gather and everything after the messages named. -/
theorem result_eq (a0 a1 a2 : IVec S2097152 32) (a3 : FVec Ideal S2097152 .f32) (x : FVec Ideal S8x8192x64 .f32) (k5 k6 : IVec S8x8192 1) :
    (select (broadcastInDim S8x8192x64 ![0, 1, 2] bcast_S8x8192x1_S8x8192x64_0_1_2 (broadcastInDim S8x8192x1 ![0, 1] bcast_S8x8192_S8x8192x1_0_1 k6)) (shapeCast _ (Host.scatterAdd scatter_S65536x64_S2097152x1_S2097152x64_1_0_0_1 (broadcastInDim S65536x64 ![] bcast_S_S65536x64 (constant (F := Ideal) S_ .f32 0x00000000#32)) (broadcastInDim S2097152x1 ![0] bcast_S2097152_S2097152x1_0 (addi (muli a0 (broadcastInDim S2097152 ![] bcast_S_S2097152 (constantI S_ 32 8192#32))) a1)) (mulf (broadcastInDim S2097152x64 ![0, 1] bcast_S2097152x1_S2097152x64_0_1 (broadcastInDim S2097152x1 ![0] bcast_S2097152_S2097152x1_0 a3)) (Host.gather gather_S8x8192x64_S2097152x2_S2097152x64_1_01_n_n_01_1_1164 (select (broadcastInDim S8x8192x64 ![0, 1, 2] bcast_S8x8192x1_S8x8192x64_0_1_2 (broadcastInDim S8x8192x1 ![0, 1] bcast_S8x8192_S8x8192x1_0_1 k5)) x (broadcastInDim S8x8192x64 ![] bcast_S_S8x8192x64 (id (constant S_ .f32 0x00000000#32)))) (concatenate S2097152x2 1 [⟨S2097152x1, (broadcastInDim S2097152x1 ![0] bcast_S2097152_S2097152x1_0 (select (cmpi .slt a0 (broadcastInDim S2097152 ![] bcast_S_S2097152 (constantI S_ 32 0#32))) (addi a0 (broadcastInDim S2097152 ![] bcast_S_S2097152 (constantI S_ 32 8#32))) a0))⟩, ⟨S2097152x1, (broadcastInDim S2097152x1 ![0] bcast_S2097152_S2097152x1_0 (select (cmpi .slt a2 (broadcastInDim S2097152 ![] bcast_S_S2097152 (constantI S_ 32 0#32))) (addi a2 (broadcastInDim S2097152 ![] bcast_S_S2097152 (constantI S_ 32 8192#32))) a2))⟩] concatenates_S2097152x1_S2097152x1_S2097152x2_d1)))) shapeCasts_S65536x64_S8x8192x64) (broadcastInDim S8x8192x64 ![] bcast_S_S8x8192x64 (id (constant S_ .f32 0x00000000#32))) : FVec Ideal S8x8192x64 .f32)
      = sumAndMask (F := Ideal) a0 a1 k6
          (mulf (broadcastInDim S2097152x64 ![0, 1] bcast_S2097152x1_S2097152x64_0_1 (broadcastInDim S2097152x1 ![0] bcast_S2097152_S2097152x1_0 a3))
            (gatheredRows (F := Ideal) a0 a2 x k5)) := rfl

end Cert.ReferenceIdeal.RefValue

end
-- ==== Proof.lean ====
/-
  The kernel computes a batched sparse-times-dense product in coordinate form: with
  `Xf = where(X_mask, X, 0)`, edge `e` sends the row `A_vals[e] · Xf[A_batch[e], A_col[e], :]` to the target row
  `A_batch[e]·8192 + A_row[e]`; the rows are summed per target, reshaped to [8, 8192, 64] and zeroed where
  `tarX_mask` is off.  Kernel and reference differ only in how the per-edge products are formed: the kernel's
  region multiplies each gathered row by the [2097152, 1] column of weights, block of 8192 rows by block,
  the reference multiplies the weights broadcast along the rows by the gathered rows.  Entry by entry these
  are `g · w` and `w · g`, equal on the extended reals by commutativity alone, so the precondition is not used.

  * `Proof/HostParts.lean`: the shared gather and the shared scatter-add / reshape / mask, each named once, and
    the commutativity law between the two spellings of the messages;
  * `Proof/KernelMsg.lean`: the array the region leaves is every gathered row scaled by its weight;
  * `Proof/KernelRun.lean`: the kernel program's run with its result in those terms;
  * `Proof/RefRun.lean`: the reference's composed term in the same terms.
  The three frames are the generated ones (the reference's is its run with the result dropped), and the
  idealization rewrote nothing, so `preserves` is trivial.
-/
import proofs.«166348_j42666205119405_2_alg».proof.Defs
import proofs.«166348_j42666205119405_2_alg».proof.Proof.Gen.Kernel
import proofs.«166348_j42666205119405_2_alg».proof.Proof.Gen.Kernel.Frame
import proofs.«166348_j42666205119405_2_alg».proof.Proof.Gen.KernelIdeal
import proofs.«166348_j42666205119405_2_alg».proof.Proof.Gen.KernelIdeal.Frame
import proofs.«166348_j42666205119405_2_alg».proof.Proof.Gen.ReferenceIdeal
import proofs.«166348_j42666205119405_2_alg».proof.Proof.Gen.ReferenceIdeal.Run
import proofs.«166348_j42666205119405_2_alg».proof.Proof.Gen.Pre_finite_inputs
import proofs.«166348_j42666205119405_2_alg».proof.Proof.HostParts
import proofs.«166348_j42666205119405_2_alg».proof.Proof.KernelRun
import proofs.«166348_j42666205119405_2_alg».proof.Proof.RefRun
import Idealize.ShloMosaic.Adequacy
import Idealize.ShloMosaic.Init

noncomputable section

namespace Cert.Proof

open Idealize.ShloMosaic Idealize.SL.Sem
open Cert.KernelIdeal.Parts

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- On the extended reals both programs end at the scatter-added, reshaped and masked messages of arguments
    that agree; the kernel's messages are `gathered · weight`, the reference's `weight · gathered`. -/
theorem algebraic : Cert.algebraic_KernelIdeal_ReferenceIdeal := by
  intro m ρ m' ρ' _ hagree
  refine ⟨_, Cert.KernelIdeal.Msg.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [h0, h1, h2, h3, h4, h5, h6]
  refine (Cert.ReferenceIdeal.RefValue.result_eq _ _ _ _ _ _ _).trans ?_
  exact congrArg (sumAndMask _ _ _) (scaled_eq_bcast_mul _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
